-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x64 .f32) (main_arg1 : IVec S2x800000 32) (main_arg2 : FVec F S64x128 .f32) (main_arg3 : FVec F S128 .f32) (main_arg4 : FVec F S128x64 .f32) (main_arg5 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S5000x64 : Shape := ⟨2, ![5000, 64]⟩
abbrev S5000x128 : Shape := ⟨2, ![5000, 128]⟩
abbrev S850000x128 : Shape := ⟨2, ![850000, 128]⟩
abbrev S1x128 : Shape := ⟨2, ![1, 128]⟩
abbrev S850000x64 : Shape := ⟨2, ![850000, 64]⟩
abbrev S1x64 : Shape := ⟨2, ![1, 64]⟩

abbrev nBuf : Space → Nat
  | .hbm => 87
  | .vmem => 20
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S850000, .i32⟩
  | .hbm, ⟨32, _⟩ => ⟨S850000, .i1⟩
  | .hbm, ⟨33, _⟩ => ⟨S_, .i32⟩
  | .hbm, ⟨34, _⟩ => ⟨S850000, .i32⟩
  | .hbm, ⟨35, _⟩ => ⟨S850000, .i32⟩
  | .hbm, ⟨36, _⟩ => ⟨S850000, .i32⟩
  | .hbm, ⟨37, _⟩ => ⟨S850000x1, .i32⟩
  | .hbm, ⟨38, _⟩ => ⟨S850000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S850000, .f32⟩
  | .hbm, ⟨49, _⟩ => ⟨S50000x128, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x64, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000x64, .f32⟩
  | .hbm, ⟨78, _⟩ => ⟨S850000x1, .f32⟩
  | .hbm, ⟨79, _⟩ => ⟨S850000x64, .f32⟩
  | .hbm, ⟨80, _⟩ => ⟨S850000x64, .f32⟩
  | .hbm, ⟨81, _⟩ => ⟨S_, .f32⟩
  | .hbm, ⟨82, _⟩ => ⟨S50000x64, .f32⟩
  | .hbm, ⟨83, _⟩ => ⟨S850000x1, .i32⟩
  | .hbm, ⟨84, _⟩ => ⟨S50000x64, .f32⟩
  | .hbm, ⟨85, _⟩ => ⟨S1x64, .f32⟩
  | .hbm, ⟨86, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x64_S5000x64_0_0 : ∀ a, (![0, 0] : Fin 2 → Nat) a + S5000x64.size a ≤ S5000x64.size a
  h_S5000x64 : 0 < S5000x64.numel
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x128_S5000x128_1_0_0_1_n_n_wf : DotDims.WF S5000x64 S64x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S850000x64 : Shape := ⟨2, ![850000, 64]⟩
abbrev S1x64 : Shape := ⟨2, ![1, 64]⟩

abbrev nBuf : Space → Nat
  | .hbm => 114
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x128, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x128, .f32⟩
  | .hbm, ⟨59, _⟩ => ⟨S850000x1, .f32⟩
  | .hbm, ⟨60, _⟩ => ⟨S850000x128, .f32⟩
  | .hbm, ⟨61, _⟩ => ⟨S850000x128, .f32⟩
  | .hbm, ⟨62, _⟩ => ⟨S_, .f32⟩
  | .hbm, ⟨63, _⟩ => ⟨S50000x128, .f32⟩
  | .hbm, ⟨64, _⟩ => ⟨S850000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S50000x64, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000, .f32⟩
  | .hbm, ⟨91, _⟩ => ⟨S850000, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x64, .f32⟩
  | .hbm, ⟨101, _⟩ => ⟨S850000x1, .f32⟩
  | .hbm, ⟨102, _⟩ => ⟨S850000x64, .f32⟩
  | .hbm, ⟨103, _⟩ => ⟨S850000x64, .f32⟩
  | .hbm, ⟨104, _⟩ => ⟨S_, .f32⟩
  | .hbm, ⟨105, _⟩ => ⟨S50000x64, .f32⟩
  | .hbm, ⟨106, _⟩ => ⟨S850000x1, .i32⟩
  | .hbm, ⟨107, _⟩ => ⟨S50000x64, .f32⟩
  | .hbm, ⟨108, _⟩ => ⟨S1x64, .f32⟩
  | .hbm, ⟨109, _⟩ => ⟨S50000x64, .f32⟩
  | .hbm, ⟨110, _⟩ => ⟨S50000x64, .f32⟩
  | .hbm, ⟨111, _⟩ => ⟨S_, .f32⟩
  | .hbm, ⟨112, _⟩ => ⟨S50000x64, .f32⟩
  | .hbm, ⟨113, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_call2_cst : Ref sig .tc := ⟨.hbm, 111, rfl⟩
abbrev main_call2_v0 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  dot_S50000x64_S64x128_S50000x128_1_0_0_1_n_n_wf : DotDims.WF S50000x64 S64x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.ResultRun.lean ====
/-
  The idealized kernel's run with its result named.

  The program is four kernel launches among stretches of host operations. Its run from any memory ends with every
  buffer that outlives a launch at the contents obtained by folding the program's segments over the launch memory:
  a stretch of host operations applies them in order, a launch replaces each of its arrays by what its blocks' write-backs
  leave. The frame statement keeps of this only that the six argument arrays end as launched; read at the result's
  buffer as well, the same run says what the result array holds, namely the fold's last stage at that buffer.
-/
import proofs.«132735_j43404939493621_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last stage of
    the fold of the segments, and the argument arrays end as launched. -/
theorem run_result : θ_run defs (onTc (τ := τ) (main (F := F))) ⟨m, fun _ => 0, ρ⟩ (fun r => ∀ c : Dev nD,
      r.2.mem ((c.tc : Thread nD τ).loc main_v63) = W9 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v63 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Result

end
-- ==== Proof.HostSteps.lean ====
/-
  The host steps of a layer, as functions of the arrays they read.

  With self-loops appended, edge j has a source node and a target node. A node's degree is the number of edges that
  target it; its weight is the inverse square root of the degree (of the larger of the degree and one), or zero where
  the degree is not positive; an edge's weight is the product of its two end nodes' weights. A layer's neighbourhood sum
  takes row source(j) of its input for every edge j, scales it by the edge's weight, and adds it into row target(j) of
  an array of zeros. A node number read from the edge list is taken modulo the node count when negative, as the
  gathers do. After the neighbourhood sum a per-column bias is added to every row and the result is clamped below at
  zero. Each definition below is the reference program's own host operations for that step, its operands made
  parameters, so that both programs' values can be stated over them.
-/
import proofs.«132735_j43404939493621_2_alg».proof.Proof.Gen.ReferenceIdeal

set_option maxRecDepth 8192

noncomputable section

namespace Cert.ReferenceIdeal.HostSteps

open Cert.ReferenceIdeal Cert.ReferenceIdeal.Gen Idealize.ShloMosaic Idealize.ShloMosaic.TcCoe Idealize.SL.Sem Idealize.ShloMosaic.StableHlo

variable {F : FTy → Type} [FloatOps F]

/-- Every edge's source node: row 0 of the edge list, then each node once (its self-loop). -/
def sources (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- Every edge's target node: row 1 of the edge list, then each node once. -/
def targets (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node number as the gathers read it: a negative one has the node count added. -/
def wrapped (x : (⟨S850000, .i32⟩ : BufTy).Contents (Elt F)) : (⟨S850000, .i32⟩ : BufTy).Contents (Elt F) :=
  (select (cmpi .slt x (broadcastInDim S850000 ![] bcast_S_S850000 (constantI S_ 32 0#32))) (addi x (broadcastInDim S850000 ![] bcast_S_S850000 (constantI S_ 32 50000#32))) x)

/-- A node's weight: the inverse square root of the number of edges that target it, zero where that number is not positive. -/
def invSqrtDegree (d : (⟨S850000, .i32⟩ : BufTy).Contents (Elt F)) : (⟨S50000, .f32⟩ : BufTy).Contents (Elt F) :=
  (select (cmpf (F := F) .ogt (Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))) (broadcastInDim S50000 ![] bcast_S_S50000 (constant S_ .f32 0x00000000#32))) (Host.rsqrt (maximumf (Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))) (broadcastInDim S50000 ![] bcast_S_S50000 (constant S_ .f32 0x3F800000#32)))) (broadcastInDim S50000 ![] bcast_S_S50000 (id (constant S_ .f32 0x00000000#32))))

/-- An edge's weight: the product of its source's and its target's weights. -/
def edgeWeight (s d : (⟨S850000, .i32⟩ : BufTy).Contents (Elt F)) : (⟨S850000, .f32⟩ : BufTy).Contents (Elt F) :=
  (mulf (Host.gather gather_S50000_S850000x1_S850000_n_0_n_n_0_1_1 (invSqrtDegree (F := F) d) (broadcastInDim S850000x1 ![0] bcast_S850000_S850000x1_0 (wrapped s))) (Host.gather gather_S50000_S850000x1_S850000_n_0_n_n_0_1_1 (invSqrtDegree (F := F) d) (broadcastInDim S850000x1 ![0] bcast_S850000_S850000x1_0 (wrapped d))))

/-- The neighbourhood sum of a 128-column input: each edge's source row, scaled by the edge's weight, added into its target row. -/
def neighbourSum128 (s d : (⟨S850000, .i32⟩ : BufTy).Contents (Elt F)) (w : (⟨S850000, .f32⟩ : BufTy).Contents (Elt F)) (h : (⟨S50000x128, .f32⟩ : BufTy).Contents (Elt F)) : (⟨S50000x128, .f32⟩ : BufTy).Contents (Elt F) :=
  (Host.scatterAdd scatter_S50000x128_S850000x1_S850000x128_1_0_0_1 (broadcastInDim S50000x128 ![] bcast_S_S50000x128 (constant S_ .f32 0x00000000#32)) (broadcastInDim S850000x1 ![0] bcast_S850000_S850000x1_0 d) (mulf (Host.gather gather_S50000x128_S850000x1_S850000x128_1_0_n_n_0_1_1128 h (broadcastInDim S850000x1 ![0] bcast_S850000_S850000x1_0 (wrapped s))) (broadcastInDim S850000x128 ![0, 1] bcast_S850000x1_S850000x128_0_1 (broadcastInDim S850000x1 ![0] bcast_S850000_S850000x1_0 w))))

/-- The neighbourhood sum of a 64-column input. -/
def neighbourSum64 (s d : (⟨S850000, .i32⟩ : BufTy).Contents (Elt F)) (w : (⟨S850000, .f32⟩ : BufTy).Contents (Elt F)) (h : (⟨S50000x64, .f32⟩ : BufTy).Contents (Elt F)) : (⟨S50000x64, .f32⟩ : BufTy).Contents (Elt F) :=
  (Host.scatterAdd scatter_S50000x64_S850000x1_S850000x64_1_0_0_1 (broadcastInDim S50000x64 ![] bcast_S_S50000x64 (constant S_ .f32 0x00000000#32)) (broadcastInDim S850000x1 ![0] bcast_S850000_S850000x1_0 d) (mulf (Host.gather gather_S50000x64_S850000x1_S850000x64_1_0_n_n_0_1_164 h (broadcastInDim S850000x1 ![0] bcast_S850000_S850000x1_0 (wrapped s))) (broadcastInDim S850000x64 ![0, 1] bcast_S850000x1_S850000x64_0_1 (broadcastInDim S850000x1 ![0] bcast_S850000_S850000x1_0 w))))

/-- The bias added to every row of a 128-column array, clamped below at zero. -/
def clamp128 (a : (⟨S50000x128, .f32⟩ : BufTy).Contents (Elt F)) (b : (⟨S128, .f32⟩ : BufTy).Contents (Elt F)) : (⟨S50000x128, .f32⟩ : BufTy).Contents (Elt F) :=
  (maximumf (addf a (broadcastInDim S50000x128 ![0, 1] bcast_S1x128_S50000x128_0_1 (broadcastInDim S1x128 ![1] bcast_S128_S1x128_1 b))) (broadcastInDim S50000x128 ![] bcast_S_S50000x128 (constant S_ .f32 0x00000000#32)))

/-- The bias added to every row of a 64-column array, clamped below at zero. -/
def clamp64 (a : (⟨S50000x64, .f32⟩ : BufTy).Contents (Elt F)) (b : (⟨S64, .f32⟩ : BufTy).Contents (Elt F)) : (⟨S50000x64, .f32⟩ : BufTy).Contents (Elt F) :=
  maximumf (addf a (broadcastInDim S50000x64 ![0, 1] bcast_S1x64_S50000x64_0_1 (broadcastInDim S1x64 ![1] bcast_S64_S1x64_1 b))) (broadcastInDim S50000x64 ![] bcast_S_S50000x64 (constant S_ .f32 0x00000000#32))

/-- The two layers: features times weights, neighbourhood sum, bias and clamp; twice. -/
def network (x : (⟨S50000x64, .f32⟩ : BufTy).Contents (Elt F)) (e : (⟨S2x800000, .i32⟩ : BufTy).Contents (Elt F)) (w1 : (⟨S64x128, .f32⟩ : BufTy).Contents (Elt F)) (b1 : (⟨S128, .f32⟩ : BufTy).Contents (Elt F))
    (w2 : (⟨S128x64, .f32⟩ : BufTy).Contents (Elt F)) (b2 : (⟨S64, .f32⟩ : BufTy).Contents (Elt F)) : (⟨S50000x64, .f32⟩ : BufTy).Contents (Elt F) :=
  clamp64 (neighbourSum64 (sources e) (targets e) (edgeWeight (sources e) (targets e))
    (Host.dotGeneral dot_S50000x128_S128x64_S50000x64_1_0_0_1_n_n none
      (clamp128 (neighbourSum128 (sources e) (targets e) (edgeWeight (sources e) (targets e))
        (Host.dotGeneral dot_S50000x64_S64x128_S50000x128_1_0_0_1_n_n none x w1)) b1) w2)) b2

end Cert.ReferenceIdeal.HostSteps

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.Spec.lean ====
/-
  The two dense steps of a graph-convolution layer, index by index on the extended reals.

  A layer first multiplies the node features by a weight matrix, then (after the neighbourhood sums, which both programs
  state with the same host operations) adds a per-column bias to every row and clamps the result below at zero. Both
  steps are stated here over arrays of any extents: the product at row r and column q is the sum over the contraction
  positions k of a (r, k) · w (k, q); the clamp at (r, q) is the larger of a (r, q) + b (q) and zero.
-/
import Idealize.ShloMosaic.PureOps.Ideal
import Idealize.ShloMosaic.Lib.ValueIdx

noncomputable section

namespace Cert.Layer

open Idealize.ShloMosaic Idealize.ShloMosaic.ValueIdx

/-- Rows times columns: entry (r, q) of the product of an n×K matrix with a K×N matrix. -/
def rowsByColumns (n K N : Nat) (a : (⟨2, ![n, K]⟩ : Shape).Idx → EReal) (w : (⟨2, ![K, N]⟩ : Shape).Idx → EReal) :
    (⟨2, ![n, N]⟩ : Shape).Idx → EReal :=
  fun i => ∑ k : Fin K, a (ix2 (i 0) k) * w (ix2 k (i 1))

/-- Column q's bias added to every entry of column q, then the larger of that and zero. -/
def biasClamp (n N : Nat) (a : (⟨2, ![n, N]⟩ : Shape).Idx → EReal) (b : (⟨1, ![N]⟩ : Shape).Idx → EReal) :
    (⟨2, ![n, N]⟩ : Shape).Idx → EReal :=
  fun i => max (a i + b (ix1 (i 1))) (Ideal.ofBits .f32 0x00000000#32)

/-- The same with the bias laid out as a one-row matrix. -/
def biasClampRow (n N : Nat) (a : (⟨2, ![n, N]⟩ : Shape).Idx → EReal) (b : (⟨2, ![1, N]⟩ : Shape).Idx → EReal) :
    (⟨2, ![n, N]⟩ : Shape).Idx → EReal :=
  fun i => max (a i + b (ix2 0 (i 1))) (Ideal.ofBits .f32 0x00000000#32)

end Cert.Layer

end
-- ==== Proof.FirstProduct.lean ====
/-
  What the first launch leaves in its output array: the product of its two input arrays.

  The grid has ten points. Point t stages rows 5000·t … 5000·t + 4999 of the left array (all 64 columns) and the whole
  64×128 right array, multiplies them on the matrix unit into a zero accumulator, and writes the 5000×128 product back as
  rows 5000·t … 5000·t + 4999 of the output. Entry (p, q) of the block product is the sum over k of
  left (5000·t + p, k) · right (k, q), which is entry (5000·t + p, q) of the product of the whole arrays; the ten blocks
  tile the 50000 rows, so the output array ends as the whole product. Everything is stated at the contents V the
  launch finds in its arrays, whatever they are.
-/
import proofs.«132735_j43404939493621_2_alg».proof.Proof.Gen.KernelIdeal.Frame
import proofs.«132735_j43404939493621_2_alg».proof.Proof.LibPlainDot
import proofs.«132735_j43404939493621_2_alg».proof.Proof.Spec
import Idealize.ShloMosaic.Lib.Pipeline.Value
import Idealize.ShloMosaic.Lib.ValueIdx

set_option maxRecDepth 16384

noncomputable section

namespace Cert.KernelIdeal.FirstProduct

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's accesses start at the origin of their buffers. -/
theorem origin : (![0, 0] : Fin 2 → Nat) = fun _ => 0 := funext fun a => by fin_cases a <;> rfl

/-- The block product at (p, q): the sum over k of left (p, k) · right (k, q). -/
theorem block_product (x0 : Vec Ideal S5000x64 .f32) (x1 : Vec Ideal S64x128 .f32) (j : S5000x128.Idx) :
    k0_pay1 (F := Ideal) x0 x1 j = ∑ k : Fin 64, x0 (ix2 (j 0) k) * x1 (ix2 k (j 1)) := by
  unfold k0_pay1
  exact Cert.LibPlainDot.matmul_zero_apply 5000 64 128 none _ x1 j

/-- Where the blocks sit: at point t the left and the output block are the t-th block of rows, the right block is the
    whole array. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays as the launch finds them. -/
theorem written_back (c : Dev nD) (t : Fin cfg0.N) :
    (dat0 V c).flushed 2 t = ((cfg0.win 2).blk t).view.read (Elt Ideal)
      (Cert.Layer.rowsByColumns 50000 64 128 (V c main_arg0) (V c main_arg2)) := by
  show (cfg0.win 2).cut (grid0.coords t) ((dat0 V c).after 2 t) = _
  rw [after0_2]
  unfold out0_2
  rw [View.canon_unit_zero origin]
  simp only [View.ld_unit_zero (S := S5000x64) origin, View.ld_unit_zero (S := S64x128) origin]
  obtain ⟨e0, e1, e2, e3, e4, e5⟩ := block_positions t
  funext j
  refine (block_product (iblk0 V c 0 t) (iblk0 V c 1 t) j).trans ?_
  show _ = Cert.Layer.rowsByColumns 50000 64 128 (V c main_arg0) (V c main_arg2) (((cfg0.win 2).blk t).view.emb j)
  unfold Cert.Layer.rowsByColumns
  refine Finset.sum_congr rfl fun k _ => ?_
  have hl : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have hr : ((cfg0.win 1).blk t).view.emb (ix2 k (j 1)) = ix2 k ((((cfg0.win 2).blk t).view.emb j) 1) := by
    funext a; apply Fin.ext
    match a with
    | ⟨0, _⟩ => show win0_1.index t (0 : Fin 2) * 64 + 1 * k.val = k.val; omega
    | ⟨1, _⟩ => show win0_1.index t (1 : Fin 2) * 128 + 1 * (j 1).val = win0_2.index t (1 : Fin 2) * 128 + 1 * (j 1).val; omega
  exact congrArg₂ (fun a b : EReal => a * b) (congrArg (V c main_arg0) hl) (congrArg (V c main_arg2) hr)

/-- An index of the output array is in point t's block iff each coordinate is in the block's range on its axis. -/
theorem in_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- The ten blocks tile the output: row r is in the block of point r / 5000. -/
theorem tiled (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨e0, e1, e2, e3, e4, e5⟩ := block_positions t
  have ht : t.val = (i 0).val / 5000 := rfl
  refine ⟨t, flush0_2 t, ?_⟩
  rw [in_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array after the launch is the product of the arrays the launch found. -/
theorem output (c : Dev nD) : (dat0 V c).arrAt 2 cfg0.N
    = Cert.Layer.rowsByColumns 50000 64 128 (V c main_arg0) (V c main_arg2) :=
  (dat0 V c).arrAt_eq_of_cover 2 _ (fun t _ => written_back V c t) tiled

end Cert.KernelIdeal.FirstProduct

end
-- ==== Proof.FirstClamp.lean ====
/-
  What the second launch leaves in its output array: its input with the bias row added and clamped below at zero.

  The grid has ten points. Point t stages rows 5000·t … 5000·t + 4999 of the input array (all 128 columns) and the whole
  1×128 bias row, adds the bias row to every staged row, takes the larger of each sum and zero, and writes the 5000×128
  result back as rows 5000·t … 5000·t + 4999 of the output. Entry (p, q) of the block is
  max (input (5000·t + p, q) + bias (0, q), 0); the ten blocks tile the 50000 rows, so the output array ends as that
  function of the whole input array. Everything is stated at the contents V the launch finds in its arrays.
-/
import proofs.«132735_j43404939493621_2_alg».proof.Proof.Gen.KernelIdeal.Frame
import proofs.«132735_j43404939493621_2_alg».proof.Proof.Spec
import Idealize.ShloMosaic.Lib.Pipeline.Value
import Idealize.ShloMosaic.Lib.ValueIdx

set_option maxRecDepth 16384

noncomputable section

namespace Cert.KernelIdeal.FirstClamp

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's accesses start at the origin of their buffers. -/
theorem origin : (![0, 0] : Fin 2 → Nat) = fun _ => 0 := funext fun a => by fin_cases a <;> rfl

/-- The block's entry (p, q): the larger of input (p, q) + bias (0, q) and zero. -/
theorem block_clamp (x0 : Vec Ideal S5000x128 .f32) (x1 : Vec Ideal S1x128 .f32) (j : S5000x128.Idx) :
    k1_pay1 (F := Ideal) x0 x1 j = max (x0 j + x1 (ix2 0 (j 1))) (Ideal.ofBits .f32 0x00000000#32) := by
  unfold k1_pay1
  show max (shapeCast S5000x128 x0 shapeCasts_S5000x128_S5000x128 j
      + broadcastTo S5000x128 (shapeCast S1x128 x1 shapeCasts_S1x128_S1x128) broadcasts_S1x128_S5000x128 j) _ = _
  rw [shapeCast_self, shapeCast_self]
  refine congrArg (fun z => max (x0 j + z) _) ?_
  exact broadcastTo_apply x1 broadcasts_S1x128_S5000x128 j (ix2 0 (j 1)) (fun a => by
    match a with
    | ⟨0, _⟩ => rfl
    | ⟨1, _⟩ => rfl)

/-- Where the blocks sit: at point t the input and the output block are the t-th block of rows, the bias block is the
    whole row. -/
theorem block_positions : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the clamped sum of the arrays as the launch finds them. -/
theorem written_back (c : Dev nD) (t : Fin cfg1.N) :
    (dat1 V c).flushed 2 t = ((cfg1.win 2).blk t).view.read (Elt Ideal)
      (Cert.Layer.biasClampRow 50000 128 (V c main_v45) (V c main_v46)) := by
  show (cfg1.win 2).cut (grid1.coords t) ((dat1 V c).after 2 t) = _
  rw [after1_2]
  unfold out1_2
  rw [View.canon_unit_zero origin]
  simp only [View.ld_unit_zero (S := S5000x128) origin, View.ld_unit_zero (S := S1x128) origin]
  obtain ⟨e0, e1, e2, e3, e4, e5⟩ := block_positions t
  funext j
  refine (block_clamp (iblk1 V c 0 t) (iblk1 V c 1 t) j).trans ?_
  show _ = Cert.Layer.biasClampRow 50000 128 (V c main_v45) (V c main_v46) (((cfg1.win 2).blk t).view.emb j)
  unfold Cert.Layer.biasClampRow
  have hl : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have hr : ((cfg1.win 1).blk t).view.emb (ix2 0 (j 1)) = ix2 0 ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  exact congrArg₂ (fun a b : EReal => max (a + b) (Ideal.ofBits .f32 0x00000000#32)) (congrArg (V c main_v45) hl) (congrArg (V c main_v46) hr)

/-- An index of the output array is in point t's block iff each coordinate is in the block's range on its axis. -/
theorem in_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- The ten blocks tile the output: row r is in the block of point r / 5000. -/
theorem tiled (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e0, e1, e2, e3, e4, e5⟩ := block_positions t
  have ht : t.val = (i 0).val / 5000 := rfl
  refine ⟨t, flush1_2 t, ?_⟩
  rw [in_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the launch is the clamped sum of the arrays the launch found. -/
theorem output (c : Dev nD) : (dat1 V c).arrAt 2 cfg1.N
    = Cert.Layer.biasClampRow 50000 128 (V c main_v45) (V c main_v46) :=
  (dat1 V c).arrAt_eq_of_cover 2 _ (fun t _ => written_back V c t) tiled

end Cert.KernelIdeal.FirstClamp

end
-- ==== Proof.SecondProduct.lean ====
/-
  What the third launch leaves in its output array: the product of its two input arrays.

  The grid has ten points. Point t stages rows 5000·t … 5000·t + 4999 of the left array (all 128 columns) and the whole
  128×64 right array, multiplies them on the matrix unit into a zero accumulator, and writes the 5000×64 product back as
  rows 5000·t … 5000·t + 4999 of the output. Entry (p, q) of the block product is the sum over k of
  left (5000·t + p, k) · right (k, q), which is entry (5000·t + p, q) of the product of the whole arrays; the ten blocks
  tile the 50000 rows, so the output array ends as the whole product. Everything is stated at the contents V the
  launch finds in its arrays, whatever they are.
-/
import proofs.«132735_j43404939493621_2_alg».proof.Proof.Gen.KernelIdeal.Frame
import proofs.«132735_j43404939493621_2_alg».proof.Proof.LibPlainDot
import proofs.«132735_j43404939493621_2_alg».proof.Proof.Spec
import Idealize.ShloMosaic.Lib.Pipeline.Value
import Idealize.ShloMosaic.Lib.ValueIdx

set_option maxRecDepth 16384

noncomputable section

namespace Cert.KernelIdeal.SecondProduct

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's accesses start at the origin of their buffers. -/
theorem origin : (![0, 0] : Fin 2 → Nat) = fun _ => 0 := funext fun a => by fin_cases a <;> rfl

/-- The block product at (p, q): the sum over k of left (p, k) · right (k, q). -/
theorem block_product (x0 : Vec Ideal S5000x128 .f32) (x1 : Vec Ideal S128x64 .f32) (j : S5000x64.Idx) :
    k2_pay1 (F := Ideal) x0 x1 j = ∑ k : Fin 128, x0 (ix2 (j 0) k) * x1 (ix2 k (j 1)) := by
  unfold k2_pay1
  show matmul (F := Ideal) dot_S5000x128_S128x64_S5000x64_1_0_0_1_n_n none (shapeCast S5000x128 x0 shapeCasts_S5000x128_S5000x128) x1 (constant S5000x64 .f32 0x00000000#32) j = _
  rw [shapeCast_self]
  exact Cert.LibPlainDot.matmul_zero_apply 5000 128 64 none _ x1 j

/-- Where the blocks sit: at point t the left and the output block are the t-th block of rows, the right block is the
    whole array. -/
theorem block_positions : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the arrays as the launch finds them. -/
theorem written_back (c : Dev nD) (t : Fin cfg2.N) :
    (dat2 V c).flushed 2 t = ((cfg2.win 2).blk t).view.read (Elt Ideal)
      (Cert.Layer.rowsByColumns 50000 128 64 (V c main_v47) (V c main_arg4)) := by
  show (cfg2.win 2).cut (grid2.coords t) ((dat2 V c).after 2 t) = _
  rw [after2_2]
  unfold out2_2
  rw [View.canon_unit_zero origin]
  simp only [View.ld_unit_zero (S := S5000x128) origin, View.ld_unit_zero (S := S128x64) origin]
  obtain ⟨e0, e1, e2, e3, e4, e5⟩ := block_positions t
  funext j
  refine (block_product (iblk2 V c 0 t) (iblk2 V c 1 t) j).trans ?_
  show _ = Cert.Layer.rowsByColumns 50000 128 64 (V c main_v47) (V c main_arg4) (((cfg2.win 2).blk t).view.emb j)
  unfold Cert.Layer.rowsByColumns
  refine Finset.sum_congr rfl fun k _ => ?_
  have hl : ((cfg2.win 0).blk t).view.emb (ix2 (j 0) k) = ix2 ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have hr : ((cfg2.win 1).blk t).view.emb (ix2 k (j 1)) = ix2 k ((((cfg2.win 2).blk t).view.emb j) 1) := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  exact congrArg₂ (fun a b : EReal => a * b) (congrArg (V c main_v47) hl) (congrArg (V c main_arg4) hr)

/-- An index of the output array is in point t's block iff each coordinate is in the block's range on its axis. -/
theorem in_block (t : Fin cfg2.N) (i : S50000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

/-- The ten blocks tile the output: row r is in the block of point r / 5000. -/
theorem tiled (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 10 := N_2
  let t : Fin cfg2.N := ⟨(i 0).val / 5000, by rw [hN]; omega⟩
  obtain ⟨e0, e1, e2, e3, e4, e5⟩ := block_positions t
  have ht : t.val = (i 0).val / 5000 := rfl
  refine ⟨t, flush2_2 t, ?_⟩
  rw [in_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The output array after the launch is the product of the arrays the launch found. -/
theorem output (c : Dev nD) : (dat2 V c).arrAt 2 cfg2.N
    = Cert.Layer.rowsByColumns 50000 128 64 (V c main_v47) (V c main_arg4) :=
  (dat2 V c).arrAt_eq_of_cover 2 _ (fun t _ => written_back V c t) tiled

end Cert.KernelIdeal.SecondProduct

end
-- ==== Proof.SecondClamp.lean ====
/-
  What the fourth launch leaves in its output array: its input with the bias row added and clamped below at zero.

  The grid has ten points. Point t stages rows 5000·t … 5000·t + 4999 of the input array (all 64 columns) and the whole
  1×64 bias row, adds the bias row to every staged row, takes the larger of each sum and zero, and writes the 5000×64
  result back as rows 5000·t … 5000·t + 4999 of the output. Entry (p, q) of the block is
  max (input (5000·t + p, q) + bias (0, q), 0); the ten blocks tile the 50000 rows, so the output array ends as that
  function of the whole input array. Everything is stated at the contents V the launch finds in its arrays.
-/
import proofs.«132735_j43404939493621_2_alg».proof.Proof.Gen.KernelIdeal.Frame
import proofs.«132735_j43404939493621_2_alg».proof.Proof.Spec
import Idealize.ShloMosaic.Lib.Pipeline.Value
import Idealize.ShloMosaic.Lib.ValueIdx

set_option maxRecDepth 16384

noncomputable section

namespace Cert.KernelIdeal.SecondClamp

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The body's accesses start at the origin of their buffers. -/
theorem origin : (![0, 0] : Fin 2 → Nat) = fun _ => 0 := funext fun a => by fin_cases a <;> rfl

/-- The block's entry (p, q): the larger of input (p, q) + bias (0, q) and zero. -/
theorem block_clamp (x0 : Vec Ideal S5000x64 .f32) (x1 : Vec Ideal S1x64 .f32) (j : S5000x64.Idx) :
    k3_pay1 (F := Ideal) x0 x1 j = max (x0 j + x1 (ix2 0 (j 1))) (Ideal.ofBits .f32 0x00000000#32) := by
  unfold k3_pay1
  show max (shapeCast S5000x64 x0 shapeCasts_S5000x64_S5000x64 j
      + broadcastTo S5000x64 (shapeCast S1x64 x1 shapeCasts_S1x64_S1x64) broadcasts_S1x64_S5000x64 j) _ = _
  rw [shapeCast_self, shapeCast_self]
  refine congrArg (fun z => max (x0 j + z) _) ?_
  exact broadcastTo_apply x1 broadcasts_S1x64_S5000x64 j (ix2 0 (j 1)) (fun a => by
    match a with
    | ⟨0, _⟩ => rfl
    | ⟨1, _⟩ => rfl)

/-- Where the blocks sit: at point t the input and the output block are the t-th block of rows, the bias block is the
    whole row. -/
theorem block_positions : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the clamped sum of the arrays as the launch finds them. -/
theorem written_back (c : Dev nD) (t : Fin cfg3.N) :
    (dat3 V c).flushed 2 t = ((cfg3.win 2).blk t).view.read (Elt Ideal)
      (Cert.Layer.biasClampRow 50000 64 (V c main_v61) (V c main_v62)) := by
  show (cfg3.win 2).cut (grid3.coords t) ((dat3 V c).after 2 t) = _
  rw [after3_2]
  unfold out3_2
  rw [View.canon_unit_zero origin]
  simp only [View.ld_unit_zero (S := S5000x64) origin, View.ld_unit_zero (S := S1x64) origin]
  obtain ⟨e0, e1, e2, e3, e4, e5⟩ := block_positions t
  funext j
  refine (block_clamp (iblk3 V c 0 t) (iblk3 V c 1 t) j).trans ?_
  show _ = Cert.Layer.biasClampRow 50000 64 (V c main_v61) (V c main_v62) (((cfg3.win 2).blk t).view.emb j)
  unfold Cert.Layer.biasClampRow
  have hl : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  have hr : ((cfg3.win 1).blk t).view.emb (ix2 0 (j 1)) = ix2 0 ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  exact congrArg₂ (fun a b : EReal => max (a + b) (Ideal.ofBits .f32 0x00000000#32)) (congrArg (V c main_v61) hl) (congrArg (V c main_v62) hr)

/-- An index of the output array is in point t's block iff each coordinate is in the block's range on its axis. -/
theorem in_block (t : Fin cfg3.N) (i : S50000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v63).slice (win3_2.rect t)).set ↔ _
  rw [View.set_slice_whole, Rect.mem_set_unit]
  exact Iff.rfl

/-- The ten blocks tile the output: row r is in the block of point r / 5000. -/
theorem tiled (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 10 := N_3
  let t : Fin cfg3.N := ⟨(i 0).val / 5000, by rw [hN]; omega⟩
  obtain ⟨e0, e1, e2, e3, e4, e5⟩ := block_positions t
  have ht : t.val = (i 0).val / 5000 := rfl
  refine ⟨t, flush3_2 t, ?_⟩
  rw [in_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The output array after the launch is the clamped sum of the arrays the launch found. -/
theorem output (c : Dev nD) : (dat3 V c).arrAt 2 cfg3.N
    = Cert.Layer.biasClampRow 50000 64 (V c main_v61) (V c main_v62) :=
  (dat3 V c).arrAt_eq_of_cover 2 _ (fun t _ => written_back V c t) tiled

end Cert.KernelIdeal.SecondClamp

end
-- ==== Proof.ResultValue.lean ====
/-
  The idealized kernel's result array as a function of the argument arrays.

  The run's fold of the program's segments is read at the result's buffer, last stage first. The fourth launch leaves
  the bias-and-clamp of the second neighbourhood sum; the host stretch before it computes that sum from the third
  launch's product and from the edges' sources, targets and weights; the third launch leaves the product of the second
  launch's output with the second weight matrix; the second launch leaves the bias-and-clamp of the first neighbourhood
  sum; the stretch before it computes that sum from the first launch's product; the first launch leaves the product of
  the features with the first weight matrix; and the first stretches compute the sources, the targets and the edge
  weights from the edge list. A buffer that a stretch or a launch does not write is carried unchanged across it.
-/
import proofs.«132735_j43404939493621_2_alg».proof.Proof.Gen.KernelIdeal.Frame
import proofs.«132735_j43404939493621_2_alg».proof.Proof.HostSteps
import Idealize.ShloMosaic.Lib.StableHlo.Run
import proofs.«132735_j43404939493621_2_alg».proof.Proof.FirstProduct
import proofs.«132735_j43404939493621_2_alg».proof.Proof.FirstClamp
import proofs.«132735_j43404939493621_2_alg».proof.Proof.SecondProduct
import proofs.«132735_j43404939493621_2_alg».proof.Proof.SecondClamp
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- A buffer that no operation of a stretch of host operations writes is left as it was. -/
macro "stretch_keeps" : tactic => `(tactic| (
  refine StableHlo.after_of_forall_not_mem _ _ (List.forall_iff_forall_mem.mp ?_)
  simp only [hostOps0, hostOps0_1, hostOps0_2, hostOps1, hostOps3, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The first host stretches: the edges' sources, targets and weights; the arguments untouched -/

/-! ## The edge weights, stretch by stretch

The first stretch counts each node's degree from the targets and takes its sign test and its inverse square root; the
second (the inlined selection) picks the inverse square root where the degree is positive and zero elsewhere; the
third gathers that node weight at each edge's source and target and multiplies the two. -/

/-- Where a node's degree is positive (the degree: ones added into an array of zeros at the targets). -/
def positiveDegree (d : (⟨S850000, .i32⟩ : BufTy).Contents (Elt Ideal)) : (⟨S50000, .i1⟩ : BufTy).Contents (Elt Ideal) :=
  (cmpf (F := Ideal) .ogt (Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))) (broadcastInDim S50000 ![] bcast_S_S50000 (constant S_ .f32 0x00000000#32)))

/-- The inverse square root of the larger of a node's degree and one. -/
def rsqrtDegree (d : (⟨S850000, .i32⟩ : BufTy).Contents (Elt Ideal)) : (⟨S50000, .f32⟩ : BufTy).Contents (Elt Ideal) :=
  (Host.rsqrt (F := Ideal) (maximumf (Host.scatterAdd scatter_S50000_S850000x1_S850000_n_0_0_1 (broadcastInDim S50000 ![] bcast_S_S50000 (constant S_ .f32 0x00000000#32)) (broadcastInDim S850000x1 ![0] bcast_S850000_S850000x1_0 d) (broadcastInDim S850000 ![] bcast_S_S850000 (constant S_ .f32 0x3F800000#32))) (broadcastInDim S50000 ![] bcast_S_S50000 (constant S_ .f32 0x3F800000#32))))

set_option maxHeartbeats 4000000 in
theorem at1_v3 (c : Dev nD) : W1 m ρ c (Proc.devRef .tc main_v3) = (Cert.ReferenceIdeal.HostSteps.sources (F := Ideal) (m ((c : Thread nD τ).loc main_arg1))) := by
  show StableHlo.after hostOps0 (W0 m ρ c) (Proc.devRef .tc main_v3) = _
  simp only [hostOps0]
  after_results
  rfl

set_option maxHeartbeats 4000000 in
theorem at1_v6 (c : Dev nD) : W1 m ρ c (Proc.devRef .tc main_v6) = (Cert.ReferenceIdeal.HostSteps.targets (F := Ideal) (m ((c : Thread nD τ).loc main_arg1))) := by
  show StableHlo.after hostOps0 (W0 m ρ c) (Proc.devRef .tc main_v6) = _
  simp only [hostOps0]
  after_results
  rfl

/-- The sign test of the degrees, over the targets as the stretch computed them. -/
theorem positive_of (X : Valuation τ sig (Elt Ideal)) (d : (⟨S850000, .i32⟩ : BufTy).Contents (Elt Ideal))
    (hd : StableHlo.after hostOps0 X (Proc.devRef .tc main_v6) = d) : StableHlo.after hostOps0 X (Proc.devRef .tc main_v12) = positiveDegree d := by
  subst hd
  simp only [hostOps0]
  after_results
  rfl

/-- The inverse square roots, likewise. -/
theorem rsqrt_of (X : Valuation τ sig (Elt Ideal)) (d : (⟨S850000, .i32⟩ : BufTy).Contents (Elt Ideal))
    (hd : StableHlo.after hostOps0 X (Proc.devRef .tc main_v6) = d) : StableHlo.after hostOps0 X (Proc.devRef .tc main_v15) = rsqrtDegree d := by
  subst hd
  simp only [hostOps0]
  after_results
  rfl

theorem zero_of (X : Valuation τ sig (Elt Ideal)) : StableHlo.after hostOps0 X (Proc.devRef .tc main_cst_3) = constant (F := Ideal) S_ .f32 0x00000000#32 := by
  simp only [hostOps0]
  after_results

/-- The selection: the inverse square root where the degree is positive, zero elsewhere. -/
theorem select_of (X : Valuation τ sig (Elt Ideal)) : StableHlo.after hostOps0_1 X (Proc.devRef .tc main_v16)
    = select (X (Proc.devRef .tc main_v12)) (X (Proc.devRef .tc main_v15)) (broadcastInDim S50000 ![] bcast_S_S50000 (id (X (Proc.devRef .tc main_cst_3)))) := by
  simp only [hostOps0_1]
  after_results
  rfl

/-- The node weights after the second stretch. -/
theorem at2_v16 (c : Dev nD) : W2 m ρ c (Proc.devRef .tc main_v16) = Cert.ReferenceIdeal.HostSteps.invSqrtDegree (F := Ideal) (Cert.ReferenceIdeal.HostSteps.targets (F := Ideal) (m ((c : Thread nD τ).loc main_arg1))) :=
  (select_of (W1 m ρ c)).trans (by
    show select (StableHlo.after hostOps0 (W0 m ρ c) (Proc.devRef .tc main_v12)) (StableHlo.after hostOps0 (W0 m ρ c) (Proc.devRef .tc main_v15))
      (broadcastInDim S50000 ![] bcast_S_S50000 (id (StableHlo.after hostOps0 (W0 m ρ c) (Proc.devRef .tc main_cst_3)))) = _
    rw [positive_of (W0 m ρ c) _ (at1_v6 m ρ c), rsqrt_of (W0 m ρ c) _ (at1_v6 m ρ c), zero_of (W0 m ρ c)]
    rfl)

theorem at2_v3 (c : Dev nD) : W2 m ρ c (Proc.devRef .tc main_v3) = (Cert.ReferenceIdeal.HostSteps.sources (F := Ideal) (m ((c : Thread nD τ).loc main_arg1))) :=
  (show W2 m ρ c (Proc.devRef .tc main_v3) = W1 m ρ c (Proc.devRef .tc main_v3) from (by stretch_keeps)).trans (at1_v3 m ρ c)

theorem at2_v6 (c : Dev nD) : W2 m ρ c (Proc.devRef .tc main_v6) = (Cert.ReferenceIdeal.HostSteps.targets (F := Ideal) (m ((c : Thread nD τ).loc main_arg1))) :=
  (show W2 m ρ c (Proc.devRef .tc main_v6) = W1 m ρ c (Proc.devRef .tc main_v6) from (by stretch_keeps)).trans (at1_v6 m ρ c)

/-- An edge's weight from the node weights: the source's weight times the target's. -/
def weightFrom (w : FVec Ideal S50000 .f32) (s d : IVec S850000 32) : FVec Ideal S850000 .f32 :=
  mulf (Host.gather gather_S50000_S850000x1_S850000_n_0_n_n_0_1_1 w
      (broadcastInDim S850000x1 ![0] bcast_S850000_S850000x1_0 (Cert.ReferenceIdeal.HostSteps.wrapped (F := Ideal) s)))
    (Host.gather gather_S50000_S850000x1_S850000_n_0_n_n_0_1_1 w
      (broadcastInDim S850000x1 ![0] bcast_S850000_S850000x1_0 (Cert.ReferenceIdeal.HostSteps.wrapped (F := Ideal) d)))

/-- The third stretch computes exactly that from the node weights, the sources and the targets it finds. -/
theorem weight_of (X : Valuation τ sig (Elt Ideal)) : StableHlo.after hostOps0_2 X (Proc.devRef .tc main_v31)
    = weightFrom (X (Proc.devRef .tc main_v16)) (X (Proc.devRef .tc main_v3)) (X (Proc.devRef .tc main_v6)) := by
  simp only [hostOps0_2]
  after_results_simp
  rfl

theorem at3_v31 (c : Dev nD) : W3 m ρ c (Proc.devRef .tc main_v31) = (Cert.ReferenceIdeal.HostSteps.edgeWeight (F := Ideal) (Cert.ReferenceIdeal.HostSteps.sources (F := Ideal) (m ((c : Thread nD τ).loc main_arg1))) (Cert.ReferenceIdeal.HostSteps.targets (F := Ideal) (m ((c : Thread nD τ).loc main_arg1)))) :=
  (weight_of (W2 m ρ c)).trans (by
    rw [at2_v16 m ρ c, at2_v3 m ρ c, at2_v6 m ρ c]
    rfl)

theorem at3_v3 (c : Dev nD) : W3 m ρ c (Proc.devRef .tc main_v3) = (Cert.ReferenceIdeal.HostSteps.sources (F := Ideal) (m ((c : Thread nD τ).loc main_arg1))) :=
  (show W3 m ρ c (Proc.devRef .tc main_v3) = W2 m ρ c (Proc.devRef .tc main_v3) from (by stretch_keeps)).trans (at2_v3 m ρ c)

theorem at3_v6 (c : Dev nD) : W3 m ρ c (Proc.devRef .tc main_v6) = (Cert.ReferenceIdeal.HostSteps.targets (F := Ideal) (m ((c : Thread nD τ).loc main_arg1))) :=
  (show W3 m ρ c (Proc.devRef .tc main_v6) = W2 m ρ c (Proc.devRef .tc main_v6) from (by stretch_keeps)).trans (at2_v6 m ρ c)

theorem at3_arg0 (c : Dev nD) : W3 m ρ c (Proc.devRef .tc main_arg0) = (m ((c : Thread nD τ).loc main_arg0)) :=
  calc W3 m ρ c (Proc.devRef .tc main_arg0)
    _ = W2 m ρ c (Proc.devRef .tc main_arg0) := by stretch_keeps
    _ = W1 m ρ c (Proc.devRef .tc main_arg0) := by stretch_keeps
    _ = W0 m ρ c (Proc.devRef .tc main_arg0) := by stretch_keeps
    _ = (m ((c : Thread nD τ).loc main_arg0)) := rfl

theorem at3_arg2 (c : Dev nD) : W3 m ρ c (Proc.devRef .tc main_arg2) = (m ((c : Thread nD τ).loc main_arg2)) :=
  calc W3 m ρ c (Proc.devRef .tc main_arg2)
    _ = W2 m ρ c (Proc.devRef .tc main_arg2) := by stretch_keeps
    _ = W1 m ρ c (Proc.devRef .tc main_arg2) := by stretch_keeps
    _ = W0 m ρ c (Proc.devRef .tc main_arg2) := by stretch_keeps
    _ = (m ((c : Thread nD τ).loc main_arg2)) := rfl

theorem at3_arg3 (c : Dev nD) : W3 m ρ c (Proc.devRef .tc main_arg3) = (m ((c : Thread nD τ).loc main_arg3)) :=
  calc W3 m ρ c (Proc.devRef .tc main_arg3)
    _ = W2 m ρ c (Proc.devRef .tc main_arg3) := by stretch_keeps
    _ = W1 m ρ c (Proc.devRef .tc main_arg3) := by stretch_keeps
    _ = W0 m ρ c (Proc.devRef .tc main_arg3) := by stretch_keeps
    _ = (m ((c : Thread nD τ).loc main_arg3)) := rfl

theorem at3_arg4 (c : Dev nD) : W3 m ρ c (Proc.devRef .tc main_arg4) = (m ((c : Thread nD τ).loc main_arg4)) :=
  calc W3 m ρ c (Proc.devRef .tc main_arg4)
    _ = W2 m ρ c (Proc.devRef .tc main_arg4) := by stretch_keeps
    _ = W1 m ρ c (Proc.devRef .tc main_arg4) := by stretch_keeps
    _ = W0 m ρ c (Proc.devRef .tc main_arg4) := by stretch_keeps
    _ = (m ((c : Thread nD τ).loc main_arg4)) := rfl

theorem at3_arg5 (c : Dev nD) : W3 m ρ c (Proc.devRef .tc main_arg5) = (m ((c : Thread nD τ).loc main_arg5)) :=
  calc W3 m ρ c (Proc.devRef .tc main_arg5)
    _ = W2 m ρ c (Proc.devRef .tc main_arg5) := by stretch_keeps
    _ = W1 m ρ c (Proc.devRef .tc main_arg5) := by stretch_keeps
    _ = W0 m ρ c (Proc.devRef .tc main_arg5) := by stretch_keeps
    _ = (m ((c : Thread nD τ).loc main_arg5)) := rfl

/-! ## What is carried unchanged across the launches and the later stretches -/

theorem at4_v3 (c : Dev nD) : W4 m ρ c (Proc.devRef .tc main_v3) = (Cert.ReferenceIdeal.HostSteps.sources (F := Ideal) (m ((c : Thread nD τ).loc main_arg1))) :=
  (show W4 m ρ c (Proc.devRef .tc main_v3) = W3 m ρ c (Proc.devRef .tc main_v3) from W4_of_ne m ρ c main_v3 (by decide)).trans (at3_v3 m ρ c)
theorem at4_v6 (c : Dev nD) : W4 m ρ c (Proc.devRef .tc main_v6) = (Cert.ReferenceIdeal.HostSteps.targets (F := Ideal) (m ((c : Thread nD τ).loc main_arg1))) :=
  (show W4 m ρ c (Proc.devRef .tc main_v6) = W3 m ρ c (Proc.devRef .tc main_v6) from W4_of_ne m ρ c main_v6 (by decide)).trans (at3_v6 m ρ c)
theorem at4_v31 (c : Dev nD) : W4 m ρ c (Proc.devRef .tc main_v31) = (Cert.ReferenceIdeal.HostSteps.edgeWeight (F := Ideal) (Cert.ReferenceIdeal.HostSteps.sources (F := Ideal) (m ((c : Thread nD τ).loc main_arg1))) (Cert.ReferenceIdeal.HostSteps.targets (F := Ideal) (m ((c : Thread nD τ).loc main_arg1)))) :=
  (show W4 m ρ c (Proc.devRef .tc main_v31) = W3 m ρ c (Proc.devRef .tc main_v31) from W4_of_ne m ρ c main_v31 (by decide)).trans (at3_v31 m ρ c)
theorem at4_arg3 (c : Dev nD) : W4 m ρ c (Proc.devRef .tc main_arg3) = (m ((c : Thread nD τ).loc main_arg3)) :=
  (show W4 m ρ c (Proc.devRef .tc main_arg3) = W3 m ρ c (Proc.devRef .tc main_arg3) from W4_of_ne m ρ c main_arg3 (by decide)).trans (at3_arg3 m ρ c)
theorem at4_arg4 (c : Dev nD) : W4 m ρ c (Proc.devRef .tc main_arg4) = (m ((c : Thread nD τ).loc main_arg4)) :=
  (show W4 m ρ c (Proc.devRef .tc main_arg4) = W3 m ρ c (Proc.devRef .tc main_arg4) from W4_of_ne m ρ c main_arg4 (by decide)).trans (at3_arg4 m ρ c)
theorem at4_arg5 (c : Dev nD) : W4 m ρ c (Proc.devRef .tc main_arg5) = (m ((c : Thread nD τ).loc main_arg5)) :=
  (show W4 m ρ c (Proc.devRef .tc main_arg5) = W3 m ρ c (Proc.devRef .tc main_arg5) from W4_of_ne m ρ c main_arg5 (by decide)).trans (at3_arg5 m ρ c)
theorem at5_v3 (c : Dev nD) : W5 m ρ c (Proc.devRef .tc main_v3) = (Cert.ReferenceIdeal.HostSteps.sources (F := Ideal) (m ((c : Thread nD τ).loc main_arg1))) :=
  (show W5 m ρ c (Proc.devRef .tc main_v3) = W4 m ρ c (Proc.devRef .tc main_v3) from (by stretch_keeps)).trans (at4_v3 m ρ c)
theorem at5_v6 (c : Dev nD) : W5 m ρ c (Proc.devRef .tc main_v6) = (Cert.ReferenceIdeal.HostSteps.targets (F := Ideal) (m ((c : Thread nD τ).loc main_arg1))) :=
  (show W5 m ρ c (Proc.devRef .tc main_v6) = W4 m ρ c (Proc.devRef .tc main_v6) from (by stretch_keeps)).trans (at4_v6 m ρ c)
theorem at5_v31 (c : Dev nD) : W5 m ρ c (Proc.devRef .tc main_v31) = (Cert.ReferenceIdeal.HostSteps.edgeWeight (F := Ideal) (Cert.ReferenceIdeal.HostSteps.sources (F := Ideal) (m ((c : Thread nD τ).loc main_arg1))) (Cert.ReferenceIdeal.HostSteps.targets (F := Ideal) (m ((c : Thread nD τ).loc main_arg1)))) :=
  (show W5 m ρ c (Proc.devRef .tc main_v31) = W4 m ρ c (Proc.devRef .tc main_v31) from (by stretch_keeps)).trans (at4_v31 m ρ c)
theorem at5_arg4 (c : Dev nD) : W5 m ρ c (Proc.devRef .tc main_arg4) = (m ((c : Thread nD τ).loc main_arg4)) :=
  (show W5 m ρ c (Proc.devRef .tc main_arg4) = W4 m ρ c (Proc.devRef .tc main_arg4) from (by stretch_keeps)).trans (at4_arg4 m ρ c)
theorem at5_arg5 (c : Dev nD) : W5 m ρ c (Proc.devRef .tc main_arg5) = (m ((c : Thread nD τ).loc main_arg5)) :=
  (show W5 m ρ c (Proc.devRef .tc main_arg5) = W4 m ρ c (Proc.devRef .tc main_arg5) from (by stretch_keeps)).trans (at4_arg5 m ρ c)
theorem at6_v3 (c : Dev nD) : W6 m ρ c (Proc.devRef .tc main_v3) = (Cert.ReferenceIdeal.HostSteps.sources (F := Ideal) (m ((c : Thread nD τ).loc main_arg1))) :=
  (show W6 m ρ c (Proc.devRef .tc main_v3) = W5 m ρ c (Proc.devRef .tc main_v3) from W6_of_ne m ρ c main_v3 (by decide)).trans (at5_v3 m ρ c)
theorem at6_v6 (c : Dev nD) : W6 m ρ c (Proc.devRef .tc main_v6) = (Cert.ReferenceIdeal.HostSteps.targets (F := Ideal) (m ((c : Thread nD τ).loc main_arg1))) :=
  (show W6 m ρ c (Proc.devRef .tc main_v6) = W5 m ρ c (Proc.devRef .tc main_v6) from W6_of_ne m ρ c main_v6 (by decide)).trans (at5_v6 m ρ c)
theorem at6_v31 (c : Dev nD) : W6 m ρ c (Proc.devRef .tc main_v31) = (Cert.ReferenceIdeal.HostSteps.edgeWeight (F := Ideal) (Cert.ReferenceIdeal.HostSteps.sources (F := Ideal) (m ((c : Thread nD τ).loc main_arg1))) (Cert.ReferenceIdeal.HostSteps.targets (F := Ideal) (m ((c : Thread nD τ).loc main_arg1)))) :=
  (show W6 m ρ c (Proc.devRef .tc main_v31) = W5 m ρ c (Proc.devRef .tc main_v31) from W6_of_ne m ρ c main_v31 (by decide)).trans (at5_v31 m ρ c)
theorem at6_arg4 (c : Dev nD) : W6 m ρ c (Proc.devRef .tc main_arg4) = (m ((c : Thread nD τ).loc main_arg4)) :=
  (show W6 m ρ c (Proc.devRef .tc main_arg4) = W5 m ρ c (Proc.devRef .tc main_arg4) from W6_of_ne m ρ c main_arg4 (by decide)).trans (at5_arg4 m ρ c)
theorem at6_arg5 (c : Dev nD) : W6 m ρ c (Proc.devRef .tc main_arg5) = (m ((c : Thread nD τ).loc main_arg5)) :=
  (show W6 m ρ c (Proc.devRef .tc main_arg5) = W5 m ρ c (Proc.devRef .tc main_arg5) from W6_of_ne m ρ c main_arg5 (by decide)).trans (at5_arg5 m ρ c)
theorem at7_v3 (c : Dev nD) : W7 m ρ c (Proc.devRef .tc main_v3) = (Cert.ReferenceIdeal.HostSteps.sources (F := Ideal) (m ((c : Thread nD τ).loc main_arg1))) :=
  (show W7 m ρ c (Proc.devRef .tc main_v3) = W6 m ρ c (Proc.devRef .tc main_v3) from W7_of_ne m ρ c main_v3 (by decide)).trans (at6_v3 m ρ c)
theorem at7_v6 (c : Dev nD) : W7 m ρ c (Proc.devRef .tc main_v6) = (Cert.ReferenceIdeal.HostSteps.targets (F := Ideal) (m ((c : Thread nD τ).loc main_arg1))) :=
  (show W7 m ρ c (Proc.devRef .tc main_v6) = W6 m ρ c (Proc.devRef .tc main_v6) from W7_of_ne m ρ c main_v6 (by decide)).trans (at6_v6 m ρ c)
theorem at7_v31 (c : Dev nD) : W7 m ρ c (Proc.devRef .tc main_v31) = (Cert.ReferenceIdeal.HostSteps.edgeWeight (F := Ideal) (Cert.ReferenceIdeal.HostSteps.sources (F := Ideal) (m ((c : Thread nD τ).loc main_arg1))) (Cert.ReferenceIdeal.HostSteps.targets (F := Ideal) (m ((c : Thread nD τ).loc main_arg1)))) :=
  (show W7 m ρ c (Proc.devRef .tc main_v31) = W6 m ρ c (Proc.devRef .tc main_v31) from W7_of_ne m ρ c main_v31 (by decide)).trans (at6_v31 m ρ c)
theorem at7_arg5 (c : Dev nD) : W7 m ρ c (Proc.devRef .tc main_arg5) = (m ((c : Thread nD τ).loc main_arg5)) :=
  (show W7 m ρ c (Proc.devRef .tc main_arg5) = W6 m ρ c (Proc.devRef .tc main_arg5) from W7_of_ne m ρ c main_arg5 (by decide)).trans (at6_arg5 m ρ c)

/-! ## The first launch: features times the first weight matrix -/

theorem at4_product (c : Dev nD) : W4 m ρ c (Proc.devRef .tc main_v32) = (Cert.Layer.rowsByColumns 50000 64 128 (m ((c : Thread nD τ).loc main_arg0)) (m ((c : Thread nD τ).loc main_arg2))) :=
  (W4_arr m ρ c 2).trans ((Cert.KernelIdeal.FirstProduct.output (V3 m ρ) c).trans
    (congrArg₂ (Cert.Layer.rowsByColumns 50000 64 128) (at3_arg0 m ρ c) (at3_arg2 m ρ c)))

/-! ## The stretch before the second launch: the first neighbourhood sum, the bias as a one-row matrix -/

theorem sum128_of (X : Valuation τ sig (Elt Ideal)) : StableHlo.after hostOps1 X (Proc.devRef .tc main_v45)
    = Cert.ReferenceIdeal.HostSteps.neighbourSum128 (F := Ideal) (X (Proc.devRef .tc main_v3)) (X (Proc.devRef .tc main_v6)) (X (Proc.devRef .tc main_v31)) (X (Proc.devRef .tc main_v32)) := by
  simp only [hostOps1]
  after_results_simp
  rfl

theorem bias128_of (X : Valuation τ sig (Elt Ideal)) : StableHlo.after hostOps1 X (Proc.devRef .tc main_v46)
    = shapeCast S1x128 (X (Proc.devRef .tc main_arg3)) shapeCasts_S128_S1x128 := by
  simp only [hostOps1]
  after_results
  rfl

theorem at5_sum (c : Dev nD) : W5 m ρ c (Proc.devRef .tc main_v45) = (Cert.ReferenceIdeal.HostSteps.neighbourSum128 (F := Ideal) (Cert.ReferenceIdeal.HostSteps.sources (F := Ideal) (m ((c : Thread nD τ).loc main_arg1))) (Cert.ReferenceIdeal.HostSteps.targets (F := Ideal) (m ((c : Thread nD τ).loc main_arg1))) (Cert.ReferenceIdeal.HostSteps.edgeWeight (F := Ideal) (Cert.ReferenceIdeal.HostSteps.sources (F := Ideal) (m ((c : Thread nD τ).loc main_arg1))) (Cert.ReferenceIdeal.HostSteps.targets (F := Ideal) (m ((c : Thread nD τ).loc main_arg1)))) (Cert.Layer.rowsByColumns 50000 64 128 (m ((c : Thread nD τ).loc main_arg0)) (m ((c : Thread nD τ).loc main_arg2)))) :=
  (sum128_of (W4 m ρ c)).trans (by rw [at4_v3 m ρ c, at4_v6 m ρ c, at4_v31 m ρ c, at4_product m ρ c])

theorem at5_bias (c : Dev nD) : W5 m ρ c (Proc.devRef .tc main_v46) = (shapeCast S1x128 (m ((c : Thread nD τ).loc main_arg3)) shapeCasts_S128_S1x128) :=
  (bias128_of (W4 m ρ c)).trans (by rw [at4_arg3 m ρ c])

/-! ## The second launch: bias and clamp -/

theorem at6_clamp (c : Dev nD) : W6 m ρ c (Proc.devRef .tc main_v47) = (Cert.Layer.biasClampRow 50000 128 (Cert.ReferenceIdeal.HostSteps.neighbourSum128 (F := Ideal) (Cert.ReferenceIdeal.HostSteps.sources (F := Ideal) (m ((c : Thread nD τ).loc main_arg1))) (Cert.ReferenceIdeal.HostSteps.targets (F := Ideal) (m ((c : Thread nD τ).loc main_arg1))) (Cert.ReferenceIdeal.HostSteps.edgeWeight (F := Ideal) (Cert.ReferenceIdeal.HostSteps.sources (F := Ideal) (m ((c : Thread nD τ).loc main_arg1))) (Cert.ReferenceIdeal.HostSteps.targets (F := Ideal) (m ((c : Thread nD τ).loc main_arg1)))) (Cert.Layer.rowsByColumns 50000 64 128 (m ((c : Thread nD τ).loc main_arg0)) (m ((c : Thread nD τ).loc main_arg2)))) (shapeCast S1x128 (m ((c : Thread nD τ).loc main_arg3)) shapeCasts_S128_S1x128)) :=
  (W6_arr m ρ c 2).trans ((Cert.KernelIdeal.FirstClamp.output (V5 m ρ) c).trans
    (congrArg₂ (Cert.Layer.biasClampRow 50000 128) (at5_sum m ρ c) (at5_bias m ρ c)))

/-! ## The third launch: times the second weight matrix -/

theorem at7_product (c : Dev nD) : W7 m ρ c (Proc.devRef .tc main_v48) = (Cert.Layer.rowsByColumns 50000 128 64 (Cert.Layer.biasClampRow 50000 128 (Cert.ReferenceIdeal.HostSteps.neighbourSum128 (F := Ideal) (Cert.ReferenceIdeal.HostSteps.sources (F := Ideal) (m ((c : Thread nD τ).loc main_arg1))) (Cert.ReferenceIdeal.HostSteps.targets (F := Ideal) (m ((c : Thread nD τ).loc main_arg1))) (Cert.ReferenceIdeal.HostSteps.edgeWeight (F := Ideal) (Cert.ReferenceIdeal.HostSteps.sources (F := Ideal) (m ((c : Thread nD τ).loc main_arg1))) (Cert.ReferenceIdeal.HostSteps.targets (F := Ideal) (m ((c : Thread nD τ).loc main_arg1)))) (Cert.Layer.rowsByColumns 50000 64 128 (m ((c : Thread nD τ).loc main_arg0)) (m ((c : Thread nD τ).loc main_arg2)))) (shapeCast S1x128 (m ((c : Thread nD τ).loc main_arg3)) shapeCasts_S128_S1x128)) (m ((c : Thread nD τ).loc main_arg4))) :=
  (W7_arr m ρ c 2).trans ((Cert.KernelIdeal.SecondProduct.output (V6 m ρ) c).trans
    (congrArg₂ (Cert.Layer.rowsByColumns 50000 128 64) (at6_clamp m ρ c) (at6_arg4 m ρ c)))

/-! ## The stretch before the fourth launch: the second neighbourhood sum, the bias as a one-row matrix -/

theorem sum64_of (X : Valuation τ sig (Elt Ideal)) : StableHlo.after hostOps3 X (Proc.devRef .tc main_v61)
    = Cert.ReferenceIdeal.HostSteps.neighbourSum64 (F := Ideal) (X (Proc.devRef .tc main_v3)) (X (Proc.devRef .tc main_v6)) (X (Proc.devRef .tc main_v31)) (X (Proc.devRef .tc main_v48)) := by
  simp only [hostOps3]
  after_results_simp
  rfl

theorem bias64_of (X : Valuation τ sig (Elt Ideal)) : StableHlo.after hostOps3 X (Proc.devRef .tc main_v62)
    = shapeCast S1x64 (X (Proc.devRef .tc main_arg5)) shapeCasts_S64_S1x64 := by
  simp only [hostOps3]
  after_results
  rfl

theorem at8_sum (c : Dev nD) : W8 m ρ c (Proc.devRef .tc main_v61) = (Cert.ReferenceIdeal.HostSteps.neighbourSum64 (F := Ideal) (Cert.ReferenceIdeal.HostSteps.sources (F := Ideal) (m ((c : Thread nD τ).loc main_arg1))) (Cert.ReferenceIdeal.HostSteps.targets (F := Ideal) (m ((c : Thread nD τ).loc main_arg1))) (Cert.ReferenceIdeal.HostSteps.edgeWeight (F := Ideal) (Cert.ReferenceIdeal.HostSteps.sources (F := Ideal) (m ((c : Thread nD τ).loc main_arg1))) (Cert.ReferenceIdeal.HostSteps.targets (F := Ideal) (m ((c : Thread nD τ).loc main_arg1)))) (Cert.Layer.rowsByColumns 50000 128 64 (Cert.Layer.biasClampRow 50000 128 (Cert.ReferenceIdeal.HostSteps.neighbourSum128 (F := Ideal) (Cert.ReferenceIdeal.HostSteps.sources (F := Ideal) (m ((c : Thread nD τ).loc main_arg1))) (Cert.ReferenceIdeal.HostSteps.targets (F := Ideal) (m ((c : Thread nD τ).loc main_arg1))) (Cert.ReferenceIdeal.HostSteps.edgeWeight (F := Ideal) (Cert.ReferenceIdeal.HostSteps.sources (F := Ideal) (m ((c : Thread nD τ).loc main_arg1))) (Cert.ReferenceIdeal.HostSteps.targets (F := Ideal) (m ((c : Thread nD τ).loc main_arg1)))) (Cert.Layer.rowsByColumns 50000 64 128 (m ((c : Thread nD τ).loc main_arg0)) (m ((c : Thread nD τ).loc main_arg2)))) (shapeCast S1x128 (m ((c : Thread nD τ).loc main_arg3)) shapeCasts_S128_S1x128)) (m ((c : Thread nD τ).loc main_arg4)))) :=
  (sum64_of (W7 m ρ c)).trans (by rw [at7_v3 m ρ c, at7_v6 m ρ c, at7_v31 m ρ c, at7_product m ρ c])

theorem at8_bias (c : Dev nD) : W8 m ρ c (Proc.devRef .tc main_v62) = (shapeCast S1x64 (m ((c : Thread nD τ).loc main_arg5)) shapeCasts_S64_S1x64) :=
  (bias64_of (W7 m ρ c)).trans (by rw [at7_arg5 m ρ c])

/-! ## The fourth launch: bias and clamp — the result -/

/-- The result array of the idealized kernel's run, as a function of the argument arrays. -/
theorem result_value (c : Dev nD) : W9 m ρ c (Proc.devRef .tc main_v63) = (Cert.Layer.biasClampRow 50000 64 (Cert.ReferenceIdeal.HostSteps.neighbourSum64 (F := Ideal) (Cert.ReferenceIdeal.HostSteps.sources (F := Ideal) (m ((c : Thread nD τ).loc main_arg1))) (Cert.ReferenceIdeal.HostSteps.targets (F := Ideal) (m ((c : Thread nD τ).loc main_arg1))) (Cert.ReferenceIdeal.HostSteps.edgeWeight (F := Ideal) (Cert.ReferenceIdeal.HostSteps.sources (F := Ideal) (m ((c : Thread nD τ).loc main_arg1))) (Cert.ReferenceIdeal.HostSteps.targets (F := Ideal) (m ((c : Thread nD τ).loc main_arg1)))) (Cert.Layer.rowsByColumns 50000 128 64 (Cert.Layer.biasClampRow 50000 128 (Cert.ReferenceIdeal.HostSteps.neighbourSum128 (F := Ideal) (Cert.ReferenceIdeal.HostSteps.sources (F := Ideal) (m ((c : Thread nD τ).loc main_arg1))) (Cert.ReferenceIdeal.HostSteps.targets (F := Ideal) (m ((c : Thread nD τ).loc main_arg1))) (Cert.ReferenceIdeal.HostSteps.edgeWeight (F := Ideal) (Cert.ReferenceIdeal.HostSteps.sources (F := Ideal) (m ((c : Thread nD τ).loc main_arg1))) (Cert.ReferenceIdeal.HostSteps.targets (F := Ideal) (m ((c : Thread nD τ).loc main_arg1)))) (Cert.Layer.rowsByColumns 50000 64 128 (m ((c : Thread nD τ).loc main_arg0)) (m ((c : Thread nD τ).loc main_arg2)))) (shapeCast S1x128 (m ((c : Thread nD τ).loc main_arg3)) shapeCasts_S128_S1x128)) (m ((c : Thread nD τ).loc main_arg4)))) (shapeCast S1x64 (m ((c : Thread nD τ).loc main_arg5)) shapeCasts_S64_S1x64)) :=
  (W9_arr m ρ c 2).trans ((Cert.KernelIdeal.SecondClamp.output (V8 m ρ) c).trans
    (congrArg₂ (Cert.Layer.biasClampRow 50000 64) (at8_sum m ρ c) (at8_bias m ρ c)))

end Cert.KernelIdeal.Fold

end
-- ==== Proof.ReferenceValue.lean ====
/-
  What the reference computes, over the host steps.

  The reference's run ends with its result at one composed term of the argument arrays. That term is, operation for
  operation, the two layers stated over the host steps: features times weights, the neighbourhood sum with the edge
  weights, the bias and the clamp, twice; the edge list's sources and targets and the edge weights appear in it once per
  use, each time as the same operations of the edge list.
-/
import proofs.«132735_j43404939493621_2_alg».proof.Proof.ReferenceRun
import proofs.«132735_j43404939493621_2_alg».proof.Proof.HostSteps

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The reference's result term is the two layers of the argument arrays. -/
theorem result_eq (m : (ℓ : Loc nD τ sig) → Buf (Elt F) ℓ) (c : Dev nD) :
    Cert.ReferenceIdeal.ValueP.res_main_v82 (F := F) m c
      = HostSteps.network (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v82 HostSteps.network HostSteps.clamp64 HostSteps.neighbourSum64 HostSteps.clamp128
    HostSteps.neighbourSum128 HostSteps.edgeWeight HostSteps.invSqrtDegree HostSteps.wrapped HostSteps.sources HostSteps.targets
  rfl

end Cert.ReferenceIdeal.RefValue

end
-- ==== Proof.DenseSteps.lean ====
/-
  The reference's dense steps, index by index.

  A host matrix product of an n×K array with a K×N array is, entry by entry, the sum over the K contraction positions
  of left (r, k) · right (k, q). Adding a bias to every row through two broadcasts (the bias laid along the columns of a
  one-row matrix, that row repeated down the rows) and taking the maximum with a splat of zero is, entry by entry, the
  larger of a (r, q) + b (q) and zero; reading the bias through its reshape to a one-row matrix gives the same entry.
-/
import proofs.«132735_j43404939493621_2_alg».proof.Proof.HostSteps
import proofs.«132735_j43404939493621_2_alg».proof.Proof.LibPlainDot
import proofs.«132735_j43404939493621_2_alg».proof.Proof.Spec
import Idealize.ShloMosaic.Lib.Pipeline.Value
import Idealize.ShloMosaic.Lib.ValueIdx
import Idealize.ShloMosaic.PureOps.Ideal

set_option maxRecDepth 8192

noncomputable section

namespace Cert.ReferenceIdeal.DenseSteps

open Cert.ReferenceIdeal Cert.ReferenceIdeal.Gen Idealize.ShloMosaic Idealize.ShloMosaic.ValueIdx

/-- The first layer's product, entry by entry. -/
theorem product1 (x : FVec Ideal S50000x64 .f32) (w : FVec Ideal S64x128 .f32) :
    Host.dotGeneral (F := Ideal) dot_S50000x64_S64x128_S50000x128_1_0_0_1_n_n none x w
      = Cert.Layer.rowsByColumns 50000 64 128 x w :=
  funext fun i => Cert.LibPlainDot.dotGeneral_apply 50000 64 128 none .single x w i

/-- The second layer's product, entry by entry. -/
theorem product2 (x : FVec Ideal S50000x128 .f32) (w : FVec Ideal S128x64 .f32) :
    Host.dotGeneral (F := Ideal) dot_S50000x128_S128x64_S50000x64_1_0_0_1_n_n none x w
      = Cert.Layer.rowsByColumns 50000 128 64 x w :=
  funext fun i => Cert.LibPlainDot.dotGeneral_apply 50000 128 64 none .single x w i

/-- A splat of the zero word read at any index. -/
theorem zeros_apply (S : Shape) (h : S_.BroadcastsInDim S (![] : Fin 0 → Fin S.rank)) (i : S.Idx) :
    broadcastInDim S ![] h (constant (F := Ideal) S_ .f32 0x00000000#32) i = Ideal.ofBits .f32 0x00000000#32 :=
  broadcastInDim_apply ![] h _ i ix0 (fun a => a.elim0)

/-- A bias of N entries repeated down n rows, read at (r, q): entry q of the bias. -/
theorem bias_rows_apply (n N : Nat) (h1 : (⟨1, ![N]⟩ : Shape).BroadcastsInDim ⟨2, ![1, N]⟩ (![1] : Fin 1 → Fin 2))
    (h2 : (⟨2, ![1, N]⟩ : Shape).BroadcastsInDim ⟨2, ![n, N]⟩ (![0, 1] : Fin 2 → Fin 2)) (hN : N ≠ 1)
    (b : (⟨1, ![N]⟩ : Shape).Idx → EReal) (i : (⟨2, ![n, N]⟩ : Shape).Idx) :
    broadcastInDim ⟨2, ![n, N]⟩ ![0, 1] h2 (broadcastInDim ⟨2, ![1, N]⟩ ![1] h1 b) i = b (ix1 (i 1)) := by
  refine (broadcastInDim_apply ![0, 1] h2 _ i (ix2 0 (i 1)) (fun a => ?_)).trans
    (broadcastInDim_apply ![1] h1 b (ix2 0 (i 1)) (ix1 (i 1)) (fun a => ?_))
  · match a with
    | ⟨0, _⟩ => rfl
    | ⟨1, _⟩ => show (i 1).val = if N = 1 then 0 else (i 1).val; rw [if_neg hN]
  · match a with
    | ⟨0, _⟩ => show (i 1).val = if N = 1 then 0 else (i 1).val; rw [if_neg hN]

/-- A bias of N entries reshaped to a one-row matrix, read at (0, q): entry q of the bias. -/
theorem bias_row_apply (N : Nat) (h : (⟨1, ![N]⟩ : Shape).ShapeCasts ⟨2, ![1, N]⟩)
    (b : (⟨1, ![N]⟩ : Shape).Idx → EReal) (q : Fin N) :
    shapeCast ⟨2, ![1, N]⟩ b h (ix2 0 q) = b (ix1 q) :=
  (shapeCast_addUnit_apply ![N] b h (ix2 0 q)).trans (congrArg b (funext fun a => by
    match a with
    | ⟨0, _⟩ => rfl))

/-- The first layer's bias and clamp, entry by entry, the bias read through its one-row reshape. -/
theorem clamp128_eq (a : FVec Ideal S50000x128 .f32) (b : FVec Ideal S128 .f32) (h : S128.ShapeCasts S1x128) :
    HostSteps.clamp128 (F := Ideal) a b = Cert.Layer.biasClampRow 50000 128 a (shapeCast S1x128 b h) := by
  funext i
  unfold HostSteps.clamp128 Cert.Layer.biasClampRow
  show max (a i + broadcastInDim S50000x128 ![0, 1] bcast_S1x128_S50000x128_0_1 (broadcastInDim S1x128 ![1] bcast_S128_S1x128_1 b) i)
      (broadcastInDim S50000x128 ![] bcast_S_S50000x128 (constant (F := Ideal) S_ .f32 0x00000000#32) i) = _
  rw [zeros_apply, bias_rows_apply 50000 128 _ _ (by decide), bias_row_apply 128 h b (i 1)]

/-- The second layer's bias and clamp, entry by entry, the bias read through its one-row reshape. -/
theorem clamp64_eq (a : FVec Ideal S50000x64 .f32) (b : FVec Ideal S64 .f32) (h : S64.ShapeCasts S1x64) :
    HostSteps.clamp64 (F := Ideal) a b = Cert.Layer.biasClampRow 50000 64 a (shapeCast S1x64 b h) := by
  funext i
  unfold HostSteps.clamp64 Cert.Layer.biasClampRow
  show max (a i + broadcastInDim S50000x64 ![0, 1] bcast_S1x64_S50000x64_0_1 (broadcastInDim S1x64 ![1] bcast_S64_S1x64_1 b) i)
      (broadcastInDim S50000x64 ![] bcast_S_S50000x64 (constant (F := Ideal) S_ .f32 0x00000000#32) i) = _
  rw [zeros_apply, bias_rows_apply 50000 64 _ _ (by decide), bias_row_apply 64 h b (i 1)]

/-- The two layers with both products and both clamps read entry by entry: the neighbourhood sums are untouched, the
    products are sums over the contraction positions, the clamps read the biases through their one-row reshapes. -/
theorem network_eq (x : FVec Ideal S50000x64 .f32) (e : IVec S2x800000 32) (w1 : FVec Ideal S64x128 .f32) (b1 : FVec Ideal S128 .f32)
    (w2 : FVec Ideal S128x64 .f32) (b2 : FVec Ideal S64 .f32) (h1 : S128.ShapeCasts S1x128) (h2 : S64.ShapeCasts S1x64) :
    HostSteps.network (F := Ideal) x e w1 b1 w2 b2
      = Cert.Layer.biasClampRow 50000 64
          (HostSteps.neighbourSum64 (F := Ideal) (HostSteps.sources (F := Ideal) e) (HostSteps.targets (F := Ideal) e)
            (HostSteps.edgeWeight (F := Ideal) (HostSteps.sources (F := Ideal) e) (HostSteps.targets (F := Ideal) e))
            (Cert.Layer.rowsByColumns 50000 128 64
              (Cert.Layer.biasClampRow 50000 128
                (HostSteps.neighbourSum128 (F := Ideal) (HostSteps.sources (F := Ideal) e) (HostSteps.targets (F := Ideal) e)
                  (HostSteps.edgeWeight (F := Ideal) (HostSteps.sources (F := Ideal) e) (HostSteps.targets (F := Ideal) e))
                  (Cert.Layer.rowsByColumns 50000 64 128 x w1))
                (shapeCast S1x128 b1 h1))
              w2))
          (shapeCast S1x64 b2 h2) := by
  unfold HostSteps.network
  rw [product1, clamp128_eq _ _ h1, product2, clamp64_eq _ _ h2]

end Cert.ReferenceIdeal.DenseSteps

end
-- ==== Proof.lean ====
/-
  Two graph-convolution layers: a kernel of four launches against its host reference, on the extended reals.

  Both programs compute, twice over, out = max (A · (h · W) + b, 0): the node features h times a weight matrix W, the
  neighbourhood sum A (each edge's source row, scaled by the product of the inverse square roots of its two end nodes'
  degrees, added into its target row; self-loops appended), a per-column bias b and a clamp below at zero. The kernel
  runs the product and the bias-and-clamp of each layer as launches over ten blocks of 5000 rows and leaves the
  neighbourhood sums to host operations; the reference states everything with host operations. The neighbourhood sums,
  the degrees and the edge weights are the same host operations in both programs, so they are carried through as they
  stand. What differs is settled entry by entry: a block product accumulated into zero on the matrix unit and the host's
  matrix product are both the sum over the contraction positions of left (r, k) · right (k, q), and the ten row blocks
  tile the rows; the bias reaches the kernel's clamp as a one-row matrix repeated over the block's rows and the
  reference's as two broadcasts, and both read entry q of the bias at column q. No law of the extended reals beyond
  these identities is needed, so the finiteness of the inputs is not used.

  The three frame claims: the kernel's two are its segments' launch theorem; the reference's is its run with the
  result dropped. The idealization rewrote no operation, so there is nothing to preserve.
-/
import proofs.«132735_j43404939493621_2_alg».proof.Defs
import proofs.«132735_j43404939493621_2_alg».proof.Proof.Gen.Kernel
import proofs.«132735_j43404939493621_2_alg».proof.Proof.Gen.Kernel.Skeleton
import proofs.«132735_j43404939493621_2_alg».proof.Proof.Gen.Kernel.Launch
import proofs.«132735_j43404939493621_2_alg».proof.Proof.Gen.Kernel.Points
import proofs.«132735_j43404939493621_2_alg».proof.Proof.Gen.Kernel.Frame
import proofs.«132735_j43404939493621_2_alg».proof.Proof.Gen.KernelIdeal
import proofs.«132735_j43404939493621_2_alg».proof.Proof.Gen.KernelIdeal.Skeleton
import proofs.«132735_j43404939493621_2_alg».proof.Proof.Gen.KernelIdeal.Launch
import proofs.«132735_j43404939493621_2_alg».proof.Proof.Gen.KernelIdeal.Points
import proofs.«132735_j43404939493621_2_alg».proof.Proof.Gen.KernelIdeal.Frame
import proofs.«132735_j43404939493621_2_alg».proof.Proof.Gen.ReferenceIdeal
import proofs.«132735_j43404939493621_2_alg».proof.Proof.Gen.Pre_finite_inputs
import proofs.«132735_j43404939493621_2_alg».proof.Proof.ResultRun
import proofs.«132735_j43404939493621_2_alg».proof.Proof.ResultValue
import proofs.«132735_j43404939493621_2_alg».proof.Proof.ReferenceRun
import proofs.«132735_j43404939493621_2_alg».proof.Proof.ReferenceValue
import proofs.«132735_j43404939493621_2_alg».proof.Proof.DenseSteps
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories that agree on the arguments both programs end with the two layers of the argument arrays in their
    result arrays: the kernel's fold of launches and host stretches read down to the arguments, the reference's composed
    term read over the same host steps, the dense steps of the two agreeing entry by entry. -/
theorem algebraic : Cert.algebraic_KernelIdeal_ReferenceIdeal := by
  intro m ρ m' ρ' _ hagree
  refine ⟨fun c => Cert.ReferenceIdeal.HostSteps.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans ((Cert.KernelIdeal.Fold.result_value m ρ c).trans
          (Cert.ReferenceIdeal.DenseSteps.network_eq _ _ _ _ _ _ Cert.KernelIdeal.Facts₀.shapeCasts_S128_S1x128
            Cert.KernelIdeal.Facts₀.shapeCasts_S64_S1x64).symm), (h c).2⟩)
      (Cert.KernelIdeal.Result.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5⟩ := hagree c
    rw [Cert.ReferenceIdeal.RefValue.result_eq m' c, e0, e1, e2, e3, e4, e5]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernel_ideal, Cert.Proof.frame_reference, Cert.Proof.preserves, Cert.Proof.algebraic⟩

end
